-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S64x16x3 : Shape := ⟨3, ![64, 16, 3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S64x16x3 : S_.BroadcastsInDim S64x16x3 (![] : Fin 0 → Fin S64x16x3.rank)
  reducesTo_S64x16x3_S_d0_1_2 : S64x16x3.ReducesTo [0, 1, 2] S_

variable [Facts]

def fn {F : FTy → Type} [FloatOps F] (main_arg0 : FVec F S262144x3 .f32) (main_arg1 : IVec S262144x3 32) (main_arg2 : FVec F S64x16x3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S64x16x3 .f32 := Host.absf main_arg2
  let main_cst_0 : FVec F S_ .f32 := constant S_ .f32 0x7F800000#32
  let main_v5 : FVec F S64x16x3 .f32 := broadcastInDim S64x16x3 ![] bcast_S_S64x16x3 main_cst_0
  let main_v6 : IVec S64x16x3 1 := cmpf .olt main_v4 main_v5
  let main_c_1 : IVec S_ 1 := constantI S_ 1 1#1
  let main_v7 : IVec S_ 1 := (fun x v => Host.reduce IntOp.andi x v reducesTo_S64x16x3_S_d0_1_2 h_S_) main_v6 main_c_1
  let main_v8 : IVec S_ 1 := andi main_v3 main_v7
  main_v8
-- ==== Kernel.lean ====
abbrev S262144x3 : Shape := ⟨2, ![262144, 3]⟩
abbrev S64x16x3 : Shape := ⟨3, ![64, 16, 3]⟩
abbrev S1024x3 : Shape := ⟨2, ![1024, 3]⟩
abbrev S3x1024 : Shape := ⟨2, ![3, 1024]⟩
abbrev S_ : Shape := ⟨0, ![]⟩
abbrev S1024 : Shape := ⟨1, ![1024]⟩
abbrev S1x1024 : Shape := ⟨2, ![1, 1024]⟩
abbrev S64 : Shape := ⟨1, ![64]⟩
abbrev S1024x1 : Shape := ⟨2, ![1024, 1]⟩
abbrev S1x64 : Shape := ⟨2, ![1, 64]⟩
abbrev S1024x64 : Shape := ⟨2, ![1024, 64]⟩
abbrev S262144x64 : Shape := ⟨2, ![262144, 64]⟩
abbrev S1024x1024 : Shape := ⟨2, ![1024, 1024]⟩

abbrev nBuf : Space → Nat
  | .hbm => 39
  | .vmem => 7
  | .smem => 0
  | _ => 0

abbrev bufTy : (tb : Table) → Fin (tcTables nBuf tb) → BufTy
  | .hbm, ⟨0, _⟩ => ⟨S262144x3, .f32⟩
  | .hbm, ⟨1, _⟩ => ⟨S262144x3, .i32⟩
  | .hbm, ⟨2, _⟩ => ⟨S64x16x3, .f32⟩
  | .hbm, ⟨3, _⟩ => ⟨S1024x3, .f32⟩
  | .hbm, ⟨4, _⟩ => ⟨S3x1024, .f32⟩
  | .hbm, ⟨5, _⟩ => ⟨S1024x3, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S64, .i32⟩
  | .hbm, ⟨29, _⟩ => ⟨S1024x1, .i32⟩
  | .hbm, ⟨30, _⟩ => ⟨S1x64, .i32⟩
  | .hbm, ⟨31, _⟩ => ⟨S1024x64, .i32⟩
  | .hbm, ⟨32, _⟩ => ⟨S1024x64, .i32⟩
  | .hbm, ⟨33, _⟩ => ⟨S1024x64, .i1⟩
  | .hbm, ⟨34, _⟩ => ⟨S1024x64, .f32⟩
  | .hbm, ⟨35, _⟩ => ⟨S_, .f32⟩
  | .hbm, ⟨36, _⟩ => ⟨S1024x64, .f32⟩
  | .hbm, ⟨37, _⟩ => ⟨S1024x64, .f32⟩
  | .hbm, ⟨38, _⟩ => ⟨S262144x64, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S1x1024, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x16x3_S1024x3 : S64x16x3.ShapeCasts S1024x3
  transposes_S1024x3_S3x1024_1_0 : S1024x3.Transposes [1, 0] S3x1024
  reducesTo_S1024x3_S1024_d1 : S1024x3.ReducesTo [1] S1024
  h_S_ : 0 < S_.numel
  bcast_S1024_S1x1024_1 : S1024.BroadcastsInDim S1x1024 (![1] : Fin 1 → Fin S1x1024.rank)
  bcast_S_S1024 : S_.BroadcastsInDim S1024 (![] : Fin 0 → Fin S1024.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  bitsLt_bf16_f32 : FTy.bits .bf16 < FTy.bits .f32
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  dot_S1024x3_S3x1024_S1024x1024_1_0_0_1_n_n_wf : DotDims.WF S1024x3 S3x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S262144x3.size a
  hwx0_0 : ∀ i : grid0.Coords, EltTy.bits .f32 = 32 ∨ (Rect.block (s := S262144x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S262144x64.size a
  hwx0_4 : ∀ i : grid0.Coords, EltTy.bits .f32 = 32 ∨ (Rect.block (s := S262144x64) S1024x64.size (cc0_transform_4 i) (hinb0_4 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x3 : Shape := ⟨2, ![262144, 3]⟩
abbrev S64x16x3 : Shape := ⟨3, ![64, 16, 3]⟩
abbrev S1024x3 : Shape := ⟨2, ![1024, 3]⟩
abbrev S_ : Shape := ⟨0, ![]⟩
abbrev S262144 : Shape := ⟨1, ![262144]⟩
abbrev S1024 : Shape := ⟨1, ![1024]⟩
abbrev S3x1024 : Shape := ⟨2, ![3, 1024]⟩
abbrev S262144x1024 : Shape := ⟨2, ![262144, 1024]⟩
abbrev S262144x1 : Shape := ⟨2, ![262144, 1]⟩
abbrev S1x1024 : Shape := ⟨2, ![1, 1024]⟩
abbrev S262144x64x16 : Shape := ⟨3, ![262144, 64, 16]⟩
abbrev S262144x64 : Shape := ⟨2, ![262144, 64]⟩

abbrev nBuf : Space → Nat
  | .hbm => 32
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x3, .i32⟩
  | .hbm, ⟨2, _⟩ => ⟨S64x16x3, .f32⟩
  | .hbm, ⟨3, _⟩ => ⟨S1024x3, .f32⟩
  | .hbm, ⟨4, _⟩ => ⟨S262144x3, .f32⟩
  | .hbm, ⟨5, _⟩ => ⟨S_, .f32⟩
  | .hbm, ⟨6, _⟩ => ⟨S262144, .f32⟩
  | .hbm, ⟨7, _⟩ => ⟨S1024x3, .f32⟩
  | .hbm, ⟨8, _⟩ => ⟨S_, .f32⟩
  | .hbm, ⟨9, _⟩ => ⟨S1024, .f32⟩
  | .hbm, ⟨10, _⟩ => ⟨S3x1024, .f32⟩
  | .hbm, ⟨11, _⟩ => ⟨S262144x1024, .f32⟩
  | .hbm, ⟨12, _⟩ => ⟨S262144x1, .f32⟩
  | .hbm, ⟨13, _⟩ => ⟨S1x1024, .f32⟩
  | .hbm, ⟨14, _⟩ => ⟨S262144x1024, .f32⟩
  | .hbm, ⟨15, _⟩ => ⟨S262144x1024, .f32⟩
  | .hbm, ⟨16, _⟩ => ⟨S262144x1024, .f32⟩
  | .hbm, ⟨17, _⟩ => ⟨S_, .f32⟩
  | .hbm, ⟨18, _⟩ => ⟨S262144x1024, .f32⟩
  | .hbm, ⟨19, _⟩ => ⟨S262144x1024, .f32⟩
  | .hbm, ⟨20, _⟩ => ⟨S262144x1024, .f32⟩
  | .hbm, ⟨21, _⟩ => ⟨S262144x1024, .f32⟩
  | .hbm, ⟨22, _⟩ => ⟨S262144x1024, .f32⟩
  | .hbm, ⟨23, _⟩ => ⟨S_, .f32⟩
  | .hbm, ⟨24, _⟩ => ⟨S262144x1024, .f32⟩
  | .hbm, ⟨25, _⟩ => ⟨S262144x1024, .f32⟩
  | .hbm, ⟨26, _⟩ => ⟨S262144x64x16, .f32⟩
  | .hbm, ⟨27, _⟩ => ⟨S_, .f32⟩
  | .hbm, ⟨28, _⟩ => ⟨S262144x64, .f32⟩
  | .hbm, ⟨29, _⟩ => ⟨S_, .f32⟩
  | .hbm, ⟨30, _⟩ => ⟨S262144x64, .f32⟩
  | .hbm, ⟨31, _⟩ => ⟨S262144x64, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S64x16x3_S1024x3 : S64x16x3.ShapeCasts S1024x3
  reducesTo_S262144x3_S262144_d1 : S262144x3.ReducesTo [1] S262144
  h_S_ : 0 < S_.numel
  reducesTo_S1024x3_S1024_d1 : S1024x3.ReducesTo [1] S1024
  transposes_S1024x3_S3x1024_1_0 : S1024x3.Transposes [1, 0] S3x1024
  bcast_S262144_S262144x1_0 : S262144.BroadcastsInDim S262144x1 (![0] : Fin 1 → Fin S262144x1.rank)
  bcast_S1024_S1x1024_1 : S1024.BroadcastsInDim S1x1024 (![1] : Fin 1 → Fin S1x1024.rank)
  bcast_S262144x1_S262144x1024_0_1 : S262144x1.BroadcastsInDim S262144x1024 (![0, 1] : Fin 2 → Fin S262144x1024.rank)
  bcast_S1x1024_S262144x1024_0_1 : S1x1024.BroadcastsInDim S262144x1024 (![0, 1] : Fin 2 → Fin S262144x1024.rank)
  bcast_S_S262144x1024 : S_.BroadcastsInDim S262144x1024 (![] : Fin 0 → Fin S262144x1024.rank)
  shapeCasts_S262144x1024_S262144x64x16 : S262144x1024.ShapeCasts S262144x64x16
  reducesTo_S262144x64x16_S262144x64_d2 : S262144x64x16.ReducesTo [2] S262144x64
  bcast_S_S262144x64 : S_.BroadcastsInDim S262144x64 (![] : Fin 0 → Fin S262144x64.rank)
  dot_S262144x3_S3x1024_S262144x1024_1_0_0_1_n_n_wf : DotDims.WF S262144x3 S3x1024 S262144x1024 [1] [0] [0] [1] [] []

variable [Facts₀]

def dot_S262144x3_S3x1024_S262144x1024_1_0_0_1_n_n : DotDims S262144x3 S3x1024 S262144x1024 where
  lhsContracting := [1]
  rhsContracting := [0]
  lhsNonContracting := [0]
  rhsNonContracting := [1]
  lhsBatch := []
  rhsBatch := []
  wf := dot_S262144x3_S3x1024_S262144x1024_1_0_0_1_n_n_wf

class Facts : Prop extends Facts₀ where

variable [Facts]
-- ==== Proof.Spec.lean ====
/-
  The common value of the two programs, as one function of the two float arguments, and the one law that joins
  their last steps.

  Write X for the points (262144 rows of 3 coordinates) and W for the 64 groups of 16 centres (3 coordinates each);
  centre number j = 16·a + b is centre b of group a. For a point i and a centre j,

      val i j = exp (-(|X i|² + |W j|² - 2·⟨X i, W j⟩)) · ½ ,

  the Gaussian weight of the squared distance written through the two squared norms and the inner product, and
  the result at (i, a) is the sum of val i j over the sixteen centres j of group a, divided by 64.

  One program forms that entry as a contraction of val i · against a 1024 × 64 matrix whose entry (j, a) is 1/64
  when centre j lies in group a and 0 otherwise; the other sums the sixteen weights of the group and divides by 64.
  The law below says the two agree on the extended reals, with no hypothesis on the weights: a product with 0 is 0
  there whatever the other factor, and multiplication by the real 1/64 distributes over any sum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The points: 262144 rows of 3 coordinates. -/
abbrev SX : Shape := ⟨2, ![262144, 3]⟩
/-- The centres: 64 groups of 16, 3 coordinates each. -/
abbrev SW : Shape := ⟨3, ![64, 16, 3]⟩
/-- The result: one entry per point and group. -/
abbrev SO : Shape := ⟨2, ![262144, 64]⟩

/-- The factor 2 of the inner product, as both programs spell it. -/
abbrev two : EReal := Ideal.ofBits .f32 0x40000000#32
/-- The factor ½ of the weight, as both programs spell it. -/
abbrev half : EReal := Ideal.ofBits .f32 0x3F000000#32
/-- The word both programs spell 1/64 with, -/
abbrev w64inv : EReal := Ideal.ofBits .f32 0x3C800000#32
/-- and the word of 64. -/
abbrev w64 : EReal := Ideal.ofBits .f32 0x42800000#32

/-- Coordinate `d` of centre number `j`: centre `j % 16` of group `j / 16`. -/
def ctr (W : SW.Idx → EReal) (j : Fin 1024) (d : Fin 3) : EReal :=
  W (ix3 (⟨j.val / 16, by have := j.isLt; omega⟩ : Fin 64) (⟨j.val % 16, by omega⟩ : Fin 16) d)

/-- Centre number `16·a + l`: centre `l` of group `a`. -/
def member (a : Fin 64) (l : Fin 16) : Fin 1024 := ⟨a.val * 16 + l.val, by have := a.isLt; have := l.isLt; omega⟩

/-- The weight of point `i` and centre `j`. -/
def val (X : SX.Idx → EReal) (W : SW.Idx → EReal) (i : Fin 262144) (j : Fin 1024) : EReal :=
  Ideal.exp (-(((∑ d : Fin 3, X (ix2 i d) * X (ix2 i d)) + (∑ d : Fin 3, ctr W j d * ctr W j d))
      - two * (∑ d : Fin 3, X (ix2 i d) * ctr W j d))) * half

/-- The result's entry for point `i` and group `a`: the sixteen weights of the group summed, divided by 64. -/
def entry (X : SX.Idx → EReal) (W : SW.Idx → EReal) (i : Fin 262144) (a : Fin 64) : EReal :=
  Ideal.div (∑ l : Fin 16, val X W i (member a l)) w64

/-- The result, as an array over (point, group). -/
def G (X : SX.Idx → EReal) (W : SW.Idx → EReal) : SO.Idx → EReal := fun o => entry X W (o 0) (o 1)

theorem G_at (X : SX.Idx → EReal) (W : SW.Idx → EReal) (i : Fin 262144) (a : Fin 64) :
    G X W (ix2 i a) = entry X W i a := rfl

/-- The word `0x3C800000` denotes the real 1/64, -/
theorem w64inv_eq : w64inv = ((1 / 64 : ℝ) : EReal) := by
  simp [w64inv, Ideal.ofBits, Ideal.ieee, -EReal.coe_mul]; norm_num

/-- and `0x42800000` the real 64. -/
theorem w64_eq : w64 = ((64 : ℝ) : EReal) := by
  simp [w64, Ideal.ofBits, Ideal.ieee, -EReal.coe_mul]; norm_num

/-- Multiplication by a nonnegative real distributes over a finite sum of extended reals, whatever the terms. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- THE LAW. A contraction over the 1024 centres against the membership matrix scaled by 1/64 is the sum over
    the sixteen centres of the group, divided by 64. -/
theorem group_sum (v : Fin 1024 → EReal) (q : Fin 64) :
    ∑ j : Fin 1024, v j * ((if j.val / 16 = q.val then (1 : EReal) else 0) * w64inv)
      = Ideal.div (∑ l : Fin 16, v (member q l)) w64 := by
  rw [w64_eq, w64inv_eq, Ideal.div_coe (by norm_num : (64 : ℝ) ≠ 0),
    sum_mul_real _ _ _ (by norm_num : (0 : ℝ) ≤ 1 / 64)]
  -- each term: the weight times 1/64 inside the group, 0 outside it
  have hterm : ∀ j : Fin 1024, v j * ((if j.val / 16 = q.val then (1 : EReal) else 0) * ((1 / 64 : ℝ) : EReal))
      = if j.val / 16 = q.val then v j * ((1 / 64 : ℝ) : EReal) else 0 := by
    intro j
    split_ifs
    · rw [one_mul]
    · rw [zero_mul, mul_zero]
  simp only [hterm]
  -- the centres as pairs (group, member)
  rw [← Equiv.sum_comp (finProdFinEquiv (m := 64) (n := 16))
    (fun j : Fin 1024 => if j.val / 16 = q.val then v j * ((1 / 64 : ℝ) : EReal) else 0), Fintype.sum_prod_type]
  have hin : ∀ (a : Fin 64) (b : Fin 16),
      (if (finProdFinEquiv (a, b) : Fin 1024).val / 16 = q.val then v (finProdFinEquiv (a, b)) * ((1 / 64 : ℝ) : EReal) else 0)
        = if a = q then v (member a b) * ((1 / 64 : ℝ) : EReal) else 0 := by
    intro a b
    have hv : (finProdFinEquiv (a, b) : Fin 1024).val = b.val + 16 * a.val := rfl
    have hb := b.isLt
    have hm : (finProdFinEquiv (a, b) : Fin 1024) = member a b := Fin.ext (by rw [hv]; show _ = a.val * 16 + b.val; omega)
    have hq : ((finProdFinEquiv (a, b) : Fin 1024).val / 16 = q.val) ↔ a = q := by
      rw [hv, Fin.ext_iff]; omega
    rw [hm] at hq ⊢
    exact if_congr hq rfl rfl
  simp only [hin]
  -- only group `q` contributes
  rw [Finset.sum_comm]
  refine Finset.sum_congr rfl fun b _ => ?_
  rw [Finset.sum_ite_eq' Finset.univ q (fun a => v (member a b) * ((1 / 64 : ℝ) : EReal)), if_pos (Finset.mem_univ q)]

end Cert.Spec

end
-- ==== Proof.RefValue.lean ====
/-
  The reference's result, stage by stage, is the function `Spec.G` of the two float arguments.

  The reference flattens the centres to 1024 rows (row j is centre j % 16 of group j / 16), takes the squared
  norm of every point and of every centre, the inner product of every point with every centre, forms the weight
  exp (-(|x|² + |w|² - 2⟨x, w⟩)) · ½ for every pair, regroups the 1024 weights of a point as 64 groups of 16,
  sums each group and divides by 64. Each stage is read at an index given by its coordinates; the regrouping
  sends (i, a, l) to centre number 16·a + l of point i.
-/
import proofs.«156698_j80985903334294_1_alg».proof.Proof.Gen.ReferenceIdeal.Read
import proofs.«156698_j80985903334294_1_alg».proof.Proof.Spec

noncomputable section

namespace Cert.ReferenceIdeal.RefValue

open Cert.ReferenceIdeal Cert.ReferenceIdeal.Read Idealize.ShloMosaic Idealize.ShloMosaic.ValueIdx Cert.Spec

variable (X : S262144x3.Idx → EReal) (W : S64x16x3.Idx → EReal)

/-- Row `j` of the flattened centres is centre `j % 16` of group `j / 16`. -/
theorem flat_at (j : Fin 1024) (d : Fin 3) : val_main_v0 (F := Ideal) W (ix2 j d) = ctr W j d := by
  rw [val_main_v0_apply]
  unfold ctr
  refine congrArg W (funext fun a => Fin.ext ?_)
  have hj := j.isLt
  have hd := d.isLt
  match a with
  | ⟨0, _⟩ => show (j.val * 3 + d.val) / 48 = j.val / 16; omega
  | ⟨1, _⟩ => show (j.val * 3 + d.val) / 3 % 16 = j.val % 16; omega
  | ⟨2, _⟩ => show (j.val * 3 + d.val) % 3 = d.val; omega

/-- The transposed flattened centres at (d, j): the same entry. -/
theorem flatT_at (d : Fin 3) (j : Fin 1024) : val_main_v5 (F := Ideal) W (ix2 d j) = ctr W j d := by
  rw [val_main_v5_apply]
  have e : idx_main_v5 (ix2 d j) = ix2 j d :=
    funext fun a => Fin.ext (by match a with | ⟨0, _⟩ => rfl | ⟨1, _⟩ => rfl)
  rw [e, flat_at]

/-- The squared norm of centre `j`. -/
theorem cnorm_at (j : Fin 1024) :
    val_main_v4 (F := Ideal) W (ix1 j) = ∑ d : Fin 3, ctr W j d * ctr W j d := by
  rw [val_main_v4_apply, val_main_cst_0_apply]
  show Ideal.ofBits .f32 0x00000000#32 + _ = _
  rw [Ideal.ofBits_zero_f32, zero_add]
  refine Finset.sum_congr rfl fun d _ => ?_
  have e : idx_main_v4 (ix1 j) d = ix2 j d :=
    funext fun a => Fin.ext (by match a with | ⟨0, _⟩ => rfl | ⟨1, _⟩ => rfl)
  rw [e, val_main_v3_apply, flat_at]
  rfl

/-- The squared norms of the centres laid out as a row, at (0, j). -/
theorem cnormRow_at (u : Fin 1) (j : Fin 1024) :
    val_main_v8 (F := Ideal) W (ix2 u j) = ∑ d : Fin 3, ctr W j d * ctr W j d := by
  rw [val_main_v8_apply]
  have e : idx_main_v8 (ix2 u j) = ix1 j :=
    funext fun a => Fin.ext (by match a with | ⟨0, _⟩ => rfl)
  rw [e, cnorm_at]

/-- The squared norm of point `i`. -/
theorem pnorm_at (i : Fin 262144) :
    val_main_v2 (F := Ideal) X (ix1 i) = ∑ d : Fin 3, X (ix2 i d) * X (ix2 i d) := by
  rw [val_main_v2_apply, val_main_cst_apply]
  show Ideal.ofBits .f32 0x00000000#32 + _ = _
  rw [Ideal.ofBits_zero_f32, zero_add]
  refine Finset.sum_congr rfl fun d _ => ?_
  have e : idx_main_v2 (ix1 i) d = ix2 i d :=
    funext fun a => Fin.ext (by match a with | ⟨0, _⟩ => rfl | ⟨1, _⟩ => rfl)
  rw [e, val_main_v1_apply]
  rfl

/-- The inner product of point `i` with centre `j`. -/
theorem inner_at (i : Fin 262144) (j : Fin 1024) :
    val_main_v6 (F := Ideal) X W (ix2 i j) = ∑ d : Fin 3, X (ix2 i d) * ctr W j d := by
  rw [val_main_v6_apply]
  refine Finset.sum_congr rfl fun d _ => ?_
  have el : lidx_main_v6 (ix2 i j) d = ix2 i d :=
    funext fun a => Fin.ext (by match a with | ⟨0, _⟩ => rfl | ⟨1, _⟩ => rfl)
  have er : ridx_main_v6 (ix2 i j) d = ix2 d j :=
    funext fun a => Fin.ext (by match a with | ⟨0, _⟩ => rfl | ⟨1, _⟩ => rfl)
  rw [el, er, flatT_at]

/-- The weight of point `i` and centre `j`. -/
theorem weight_at (i : Fin 262144) (j : Fin 1024) : val_main_v18 (F := Ideal) X W (ix2 i j) = val X W i j := by
  rw [val_main_v18_apply, val_main_v16_apply, val_main_v15_apply, val_main_v14_apply, val_main_v11_apply,
    val_main_v13_apply, val_main_v9_apply, val_main_v10_apply, val_main_v7_apply, val_main_v12_apply,
    val_main_v17_apply, val_main_cst_1_apply, val_main_cst_2_apply]
  have e9 : idx_main_v7 (idx_main_v9 (ix2 i j)) = ix1 i :=
    funext fun a => Fin.ext (by match a with | ⟨0, _⟩ => rfl)
  have e10 : idx_main_v10 (ix2 i j) = ix2 (0 : Fin 1) j :=
    funext fun a => Fin.ext (by match a with | ⟨0, _⟩ => rfl | ⟨1, _⟩ => rfl)
  rw [e9, e10, pnorm_at, cnormRow_at, inner_at]
  rfl

/-- THE REFERENCE IS `G`: its last stage, at (i, a), sums the sixteen weights of group `a` and divides by 64. -/
theorem result_eq : val_main_v22 (F := Ideal) X W = G X W := by
  funext o
  obtain ⟨i, a, rfl⟩ : ∃ (i : Fin 262144) (a : Fin 64), o = ix2 i a := ⟨o 0, o 1, eq_ix2 o⟩
  have hsum : (∑ k : Fin 16, val_main_v19 (F := Ideal) X W (idx_main_v20 (ix2 i a) k)) = ∑ l : Fin 16, val X W i (member a l) :=
    Finset.sum_congr rfl fun l _ => by
      have e : idx_main_v19 (idx_main_v20 (ix2 i a) l) = ix2 i (member a l) := funext fun b => Fin.ext (by
        have hi := i.isLt
        have ha := a.isLt
        have hl := l.isLt
        match b with
        | ⟨0, _⟩ => show ((i.val * 64 + a.val) * 16 + l.val) / 1024 = i.val; omega
        | ⟨1, _⟩ => show ((i.val * 64 + a.val) * 16 + l.val) % 1024 = a.val * 16 + l.val; omega)
      rw [val_main_v19_apply, e, weight_at]
  rw [G_at, val_main_v22_apply, val_main_v20_apply, val_main_v21_apply, val_main_cst_3_apply, val_main_cst_4_apply, hsum]
  show Ideal.div (Ideal.ofBits .f32 0x00000000#32 + _) _ = _
  rw [Ideal.ofBits_zero_f32, zero_add]
  rfl

end Cert.ReferenceIdeal.RefValue

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.Body.lean ====
/-
  What the kernel body stores, read entry by entry.

  At one grid point the body holds a block of 1024 points (`x0`, 1024 × 3), the transposed flattened centres
  (`x1`, 3 × 1024), the row of the centres' squared norms (`x2`, 1 × 1024) and the scaled membership matrix
  (`x3`, 1024 × 64). It forms, for row p and centre j, the weight

      exp (0 - ((Σ_d x0[p,d]² + x2[0,j]) - 2 · Σ_d x0[p,d]·x1[d,j])) · ½

  and stores the matrix product of the weights with `x3`. The row's squared norm is a lane sum kept as a column
  and broadcast along the row; the two matrix products accumulate into zero, so each is the plain sum over its
  contracted coordinate. The changes of float format on the way into the two products are the identity on
  extended reals.
-/
import proofs.«156698_j80985903334294_1_alg».proof.Proof.Gen.KernelIdeal.Skeleton
import proofs.«156698_j80985903334294_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.ColumnForms

variable (x0 : FVec Ideal S1024x3 .f32) (x1 : FVec Ideal S3x1024 .f32) (x2 : FVec Ideal S1x1024 .f32)
  (x3 : FVec Ideal S1024x64 .f32)

/-- Each row's squared norm, broadcast along the row. -/
def rowNorm : FVec Ideal S1024x1024 .f32 :=
  broadcastTo S1024x1024
    (shapeCast S1024x1 (multiReduction (F := Ideal) .add [1] S1024 (mulf x0 x0) 0x00000000#32 reduces_S1024x3_S1024 (.inl rfl) rfl)
      shapeCasts_S1024_S1024x1)
    broadcasts_S1024x1_S1024x1024

/-- The centres' squared norms, the one row broadcast down the columns. -/
def ctrNorm : FVec Ideal S1024x1024 .f32 :=
  broadcastTo S1024x1024 (shapeCast S1x1024 x2 shapeCasts_S1x1024_S1x1024) broadcasts_S1x1024_S1024x1024

/-- The inner products of the block's points with the centres. -/
def inner : FVec Ideal S1024x1024 .f32 :=
  matmul dot_S1024x3_S3x1024_S1024x1024_1_0_0_1_n_n none (truncf .bf16 x0 bitsLt_bf16_f32)
    (truncf .bf16 (shapeCast S3x1024 x1 shapeCasts_S3x1024_S3x1024) bitsLt_bf16_f32)
    (constant (F := Ideal) S1024x1024 .f32 0x00000000#32)

/-- The weights of the block's points against all centres. -/
def weights : FVec Ideal S1024x1024 .f32 :=
  mulf
    (exp (subf (broadcast S1024x1024 (Scalar.ofBits (F := Ideal) .f32 0x00000000#32))
      (subf (addf (rowNorm x0) (ctrNorm x2))
        (mulf (broadcast S1024x1024 (Scalar.ofBits (F := Ideal) .f32 0x40000000#32)) (inner x0 x1)))))
    (broadcast S1024x1024 (Scalar.ofBits (F := Ideal) .f32 0x3F000000#32))

/-- The stored value is the product of the weights with the fourth block. -/
theorem pay_eq : k0_pay1 (F := Ideal) x0 x1 x2 x3
    = matmul dot_S1024x1024_S1024x64_S1024x64_1_0_0_1_n_n none (truncf .bf16 (weights x0 x1 x2) bitsLt_bf16_f32)
        (truncf .bf16 (shapeCast S1024x64 x3 shapeCasts_S1024x64_S1024x64) bitsLt_bf16_f32)
        (constant (F := Ideal) S1024x64 .f32 0x00000000#32) := rfl

/-! ## The operand indices of the two products -/

theorem lhs1_0 (i : S1024x1024.Idx) (q : dot_S1024x3_S3x1024_S1024x1024_1_0_0_1_n_n.contr.Idx) : (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl
theorem lhs1_1 (i : S1024x1024.Idx) (q : dot_S1024x3_S3x1024_S1024x1024_1_0_0_1_n_n.contr.Idx) : (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs1_0 (i : S1024x1024.Idx) (q : dot_S1024x3_S3x1024_S1024x1024_1_0_0_1_n_n.contr.Idx) : (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs1_1 (i : S1024x1024.Idx) (q : dot_S1024x3_S3x1024_S1024x1024_1_0_0_1_n_n.contr.Idx) : (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

theorem lhs2_0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhs2_1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs2_0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs2_1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-! ## The pieces at an entry -/

/-- The squared norm of row `p`, at any column. -/
theorem rowNorm_at (p j : Fin 1024) : rowNorm x0 (ix2 p j) = ∑ d : Fin 3, x0 (ix2 p d) * x0 (ix2 p d) := by
  unfold rowNorm
  refine (broadcastTo_a1_ab_apply _ broadcasts_S1024x1_S1024x1024 p j).trans ?_
  refine (shapeCast_a_a1_apply _ shapeCasts_S1024_S1024x1 p (0 : Fin 1)).trans ?_
  refine (Ideal.multiReduction_add_single (mulf x0 x0) 0x00000000#32 reduces_S1024x3_S1024 (.inl rfl) rfl (ix1 p)).trans ?_
  refine Finset.sum_congr rfl fun d _ => ?_
  have e : reduces_S1024x3_S1024.lift (ix1 p) d = ix2 p d :=
    funext fun a => Fin.ext (by match a with | ⟨0, _⟩ => rfl | ⟨1, _⟩ => rfl)
  rw [e]
  rfl

/-- The squared norm of centre `j`, at any row. -/
theorem ctrNorm_at (p j : Fin 1024) : ctrNorm x2 (ix2 p j) = x2 (ix2 (0 : Fin 1) j) := by
  unfold ctrNorm
  refine (broadcastTo_1b_ab_apply _ broadcasts_S1x1024_S1024x1024 p j).trans ?_
  rw [shapeCast_self]

/-- The inner product of row `p` with centre `j`. -/
theorem inner_at (p j : Fin 1024) : inner x0 x1 (ix2 p j) = ∑ d : Fin 3, x0 (ix2 p d) * x1 (ix2 d j) := by
  unfold inner
  refine (Ideal.matmul_constant_zero_apply dot_S1024x3_S3x1024_S1024x1024_1_0_0_1_n_n none _ _ (ix2 p j)).trans ?_
  rw [← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p j) ((contrEquiv1 dot_S1024x3_S3x1024_S1024x1024_1_0_0_1_n_n 3 rfl rfl).symm k) = ix2 p k := funext fun a => Fin.ext (by
    match a with
    | ⟨0, _⟩ => exact lhs1_0 _ _
    | ⟨1, _⟩ => exact (lhs1_1 _ _).trans hk)
  have er : dot_S1024x3_S3x1024_S1024x1024_1_0_0_1_n_n.rhsIdx (ix2 p j) ((contrEquiv1 dot_S1024x3_S3x1024_S1024x1024_1_0_0_1_n_n 3 rfl rfl).symm k) = ix2 k j := funext fun a => Fin.ext (by
    match a with
    | ⟨0, _⟩ => exact (rhs1_0 _ _).trans hk
    | ⟨1, _⟩ => exact rhs1_1 _ _)
  rw [el, er]
  show x0 (ix2 p k) * shapeCast S3x1024 x1 shapeCasts_S3x1024_S3x1024 (ix2 k j) = _
  rw [shapeCast_self]

/-- The weight of row `p` against centre `j`. -/
theorem weights_at (p j : Fin 1024) : weights x0 x1 x2 (ix2 p j)
    = Ideal.exp (-(((∑ d : Fin 3, x0 (ix2 p d) * x0 (ix2 p d)) + x2 (ix2 (0 : Fin 1) j))
        - Ideal.ofBits .f32 0x40000000#32 * (∑ d : Fin 3, x0 (ix2 p d) * x1 (ix2 d j)))) * Ideal.ofBits .f32 0x3F000000#32 := by
  have h : weights x0 x1 x2 (ix2 p j)
      = Ideal.exp (Ideal.ofBits .f32 0x00000000#32 - ((rowNorm x0 (ix2 p j) + ctrNorm x2 (ix2 p j))
          - Ideal.ofBits .f32 0x40000000#32 * inner x0 x1 (ix2 p j))) * Ideal.ofBits .f32 0x3F000000#32 := rfl
  rw [h, rowNorm_at, ctrNorm_at, inner_at, Ideal.ofBits_zero_f32, zero_sub]

/-- THE STORED ENTRY (p, q): the weights of row `p` contracted against column `q` of the fourth block. -/
theorem pay_at (p : Fin 1024) (q : Fin 64) : k0_pay1 (F := Ideal) x0 x1 x2 x3 (ix2 p q)
    = ∑ j : Fin 1024, weights x0 x1 x2 (ix2 p j) * x3 (ix2 j q) := by
  rw [pay_eq]
  refine (Ideal.matmul_constant_zero_apply dot_S1024x1024_S1024x64_S1024x64_1_0_0_1_n_n none _ _ (ix2 p q)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (rhs2_0 _ _).trans hk
    | ⟨1, _⟩ => exact rhs2_1 _ _)
  rw [el, er]
  show weights x0 x1 x2 (ix2 p k) * shapeCast S1024x64 x3 shapeCasts_S1024x64_S1024x64 (ix2 k q) = _
  rw [shapeCast_self]

end Cert.KernelIdeal.Body

end
-- ==== Proof.Prefix.lean ====
/-
  What the kernel's host lines leave in the three arrays the call reads besides the points.

  Before the call the program flattens the centres to 1024 rows and transposes them, takes each centre's squared
  norm and lays the norms out as one row, and builds the scaled membership matrix: entry (j, a) is the word of
  1/64 where floor(j / 16) = a and 0 elsewhere. The first two are the very operations the reference applies to the
  centres, so those arrays are the reference's own stages of the same argument. The membership test is integer
  arithmetic on the row number alone: the floor division is a truncating quotient, lowered by one where the
  operands' signs differ and the remainder is not zero; on 0 ≤ j < 1024 with divisor 16 that is j / 16, decided row
  by row. The comparison with the column number and the conversion to a float are read entry by entry.
-/
import proofs.«156698_j80985903334294_1_alg».proof.Proof.Gen.KernelIdeal.Frame
import proofs.«156698_j80985903334294_1_alg».proof.Proof.RefValue
import Idealize.ShloMosaic.Lib.Pipeline.Value
import Idealize.ShloMosaic.Lib.ValueIdx
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.Spec

/-! ## The membership test, on integers -/

/-- floor(j / 16) for each row number j, as the program computes it. -/
def rowGroup : IVec S1024 32 :=
  select
    (andi
      (cmpi .ne (signi (iotaInDim S1024 32 0))
        (broadcastInDim S1024 ![] bcast_S_S1024 (signi (id (constantI S_ 32 16#32)))))
      (cmpi .ne (Host.remsi (iotaInDim S1024 32 0) (broadcastInDim S1024 ![] bcast_S_S1024 (id (constantI S_ 32 16#32))))
        (broadcastInDim S1024 ![] bcast_S_S1024 (constantI S_ 32 0#32))))
    (subi (Host.divsi (iotaInDim S1024 32 0) (broadcastInDim S1024 ![] bcast_S_S1024 (id (constantI S_ 32 16#32))))
      (broadcastInDim S1024 ![] bcast_S_S1024 (constantI S_ 32 1#32)))
    (Host.divsi (iotaInDim S1024 32 0) (broadcastInDim S1024 ![] bcast_S_S1024 (id (constantI S_ 32 16#32))))

/-- Whether row j belongs to column a's group: the row's group number compared with the column number. -/
def inGroup : IVec S1024x64 1 :=
  cmpi .eq
    (broadcastInDim S1024x64 ![0, 1] bcast_S1024x1_S1024x64_0_1 (broadcastInDim S1024x1 ![0] bcast_S1024_S1024x1_0 rowGroup))
    (broadcastInDim S1024x64 ![0, 1] bcast_S1x64_S1024x64_0_1 (broadcastInDim S1x64 ![1] bcast_S64_S1x64_1 (iotaInDim S64 32 0)))

/-- Row j's group number is j / 16 (the correction never applies: no operand is negative). -/
theorem rowGroup_at : ∀ j : Fin 1024, rowGroup (ix1 j) = BitVec.ofNat 32 (j.val / 16) := by decide +kernel

/-- Two numbers below 64, as 32-bit words, compare equal exactly when they are equal. -/
theorem eq_words : ∀ a b : Fin 64,
    IntOp.cmpi .eq (BitVec.ofNat 32 a.val) (BitVec.ofNat 32 b.val) = if a.val = b.val then 1#1 else 0#1 := by
  decide +kernel

/-- The membership test at (j, a). -/
theorem inGroup_at (j : Fin 1024) (a : Fin 64) : inGroup (ix2 j a) = if j.val / 16 = a.val then 1#1 else 0#1 := by
  have hl : broadcastInDim S1024x64 ![0, 1] bcast_S1024x1_S1024x64_0_1
      (broadcastInDim S1024x1 ![0] bcast_S1024_S1024x1_0 rowGroup) (ix2 j a) = rowGroup (ix1 j) := by
    refine (broadcastInDim_apply _ bcast_S1024x1_S1024x64_0_1 _ (ix2 j a) (ix2 j (0 : Fin 1)) fun b => ?_).trans ?_
    · match b with
      | ⟨0, _⟩ => show j.val = if (1024 : Nat) = 1 then 0 else j.val; rw [if_neg (by decide)]
      | ⟨1, _⟩ => show 0 = if (1 : Nat) = 1 then 0 else a.val; rw [if_pos rfl]
    · refine broadcastInDim_apply _ bcast_S1024_S1024x1_0 _ (ix2 j (0 : Fin 1)) (ix1 j) fun b => ?_
      match b with
      | ⟨0, _⟩ => show j.val = if (1024 : Nat) = 1 then 0 else j.val; rw [if_neg (by decide)]
  have hr : broadcastInDim S1024x64 ![0, 1] bcast_S1x64_S1024x64_0_1
      (broadcastInDim S1x64 ![1] bcast_S64_S1x64_1 (iotaInDim S64 32 0)) (ix2 j a) = BitVec.ofNat 32 a.val := by
    refine (broadcastInDim_apply _ bcast_S1x64_S1024x64_0_1 _ (ix2 j a) (ix2 (0 : Fin 1) a) fun b => ?_).trans ?_
    · match b with
      | ⟨0, _⟩ => show 0 = if (1 : Nat) = 1 then 0 else j.val; rw [if_pos rfl]
      | ⟨1, _⟩ => show a.val = if (64 : Nat) = 1 then 0 else a.val; rw [if_neg (by decide)]
    · refine (broadcastInDim_apply _ bcast_S64_S1x64_1 _ (ix2 (0 : Fin 1) a) (ix1 a) fun b => ?_).trans rfl
      match b with
      | ⟨0, _⟩ => show a.val = if (64 : Nat) = 1 then 0 else a.val; rw [if_neg (by decide)]
  show IntOp.cmpi .eq _ _ = _
  rw [hl, hr, rowGroup_at]
  exact eq_words ⟨j.val / 16, by have := j.isLt; omega⟩ a

/-! ## The three arrays as the call finds them -/

variable (m : (ℓ : Loc nD τ sig) → Buf (Elt Ideal) ℓ)

/-- The transposed flattened centres are the reference's stage of the same name. -/
theorem centresT_eq (c : Dev nD) : (V m c main_v1 : S3x1024.Idx → EReal)
    = Cert.ReferenceIdeal.Read.val_main_v5 (F := Ideal) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

/-- The row of the centres' squared norms likewise. -/
theorem cnormRow_eq (c : Dev nD) : (V m c main_v4 : S1x1024.Idx → EReal)
    = Cert.ReferenceIdeal.Read.val_main_v8 (F := Ideal) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results
  rfl

set_option maxHeartbeats 4000000 in
/-- The scaled membership matrix: the membership test as a float, times the word of 1/64. -/
theorem scaled_eq (c : Dev nD) : (V m c main_v15 : S1024x64.Idx → EReal)
    = mulf (uitofp .f32 inGroup) (broadcastInDim S1024x64 ![] bcast_S_S1024x64 (constant (F := Ideal) S_ .f32 0x3C800000#32)) := by
  dsimp only [Gen.V]
  simp only [Gen.hostOps0, Gen.hostOps0_1, Gen.hostOps0_2, List.flatten_cons, List.flatten_nil, List.append_nil,
    List.cons_append, List.nil_append]
  after_results
  rfl

/-- Entry (d, j) of the transposed centres: coordinate d of centre j. -/
theorem centresT_at (c : Dev nD) (d : Fin 3) (j : Fin 1024) :
    (V m c main_v1 : S3x1024.Idx → EReal) (ix2 d j) = ctr (m ((c : Thread nD τ).loc main_arg2)) j d := by
  rw [centresT_eq]
  exact Cert.ReferenceIdeal.RefValue.flatT_at _ d j

/-- Entry (0, j) of the norms' row: the squared norm of centre j. -/
theorem cnormRow_at (c : Dev nD) (j : Fin 1024) :
    (V m c main_v4 : S1x1024.Idx → EReal) (ix2 (0 : Fin 1) j)
      = ∑ d : Fin 3, ctr (m ((c : Thread nD τ).loc main_arg2)) j d * ctr (m ((c : Thread nD τ).loc main_arg2)) j d := by
  rw [cnormRow_eq]
  exact Cert.ReferenceIdeal.RefValue.cnormRow_at _ (0 : Fin 1) j

/-- Entry (j, a) of the scaled membership matrix: 1/64's word inside the group, 0 outside it. -/
theorem scaled_at (c : Dev nD) (j : Fin 1024) (a : Fin 64) :
    (V m c main_v15 : S1024x64.Idx → EReal) (ix2 j a) = (if j.val / 16 = a.val then (1 : EReal) else 0) * w64inv := by
  rw [scaled_eq]
  show ((((inGroup (ix2 j a)).toNat : ℝ)) : EReal) * Ideal.ofBits .f32 0x3C800000#32 = _
  rw [inGroup_at]
  split_ifs <;> simp

end Cert.KernelIdeal.Prefix

end
-- ==== Proof.KernelValue.lean ====
/-
  The kernel's result array is `Spec.G` of the two float arguments.

  The grid has 256 points; point t reads rows 1024·t … 1024·t + 1023 of the points and the whole of the three
  arrays prepared before the call, and writes rows 1024·t … 1024·t + 1023 of the result. What it writes at row p
  of its block and group a is the contraction of row p's weights against column a of the scaled membership
  matrix, which by the law of the groups is the result's entry for point 1024·t + p and group a. The 256 blocks of
  rows tile the result, so the array ends holding `G` everywhere.
-/
import proofs.«156698_j80985903334294_1_alg».proof.Proof.Gen.KernelIdeal.Value
import proofs.«156698_j80985903334294_1_alg».proof.Proof.Body
import proofs.«156698_j80985903334294_1_alg».proof.Proof.Prefix
import Idealize.ShloMosaic.Lib.Pipeline.Value
import Idealize.ShloMosaic.Lib.Tactic

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Spec

variable (m : (ℓ : Loc nD τ sig) → Buf (Elt Ideal) ℓ) (ρ : Dev nD → PrngReg)

theorem hz : (![0, 0] : Fin 2 → Nat) = fun _ => 0 := funext fun a => by fin_cases a <;> rfl

/-- The index maps, decided over the grid: the points' window and the result's window are at block row t, every
    other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT ONE POINT STORES, for any four blocks that hold what the call's blocks hold at point number `n`: entry
    (p, a) is the result's entry for point 1024·n + p and group a. -/
theorem out_at (x0 : FVec Ideal S1024x3 .f32) (x1 : FVec Ideal S3x1024 .f32) (x2 : FVec Ideal S1x1024 .f32)
    (x3 : FVec Ideal S1024x64 .f32) (X : SX.Idx → EReal) (W : SW.Idx → EReal) (i : Fin 262144) (p : Fin 1024) (a : Fin 64)
    (h0 : ∀ d : Fin 3, x0 (ix2 p d) = X (ix2 i d))
    (h1 : ∀ (d : Fin 3) (j : Fin 1024), x1 (ix2 d j) = ctr W j d)
    (h2 : ∀ j : Fin 1024, x2 (ix2 (0 : Fin 1) j) = ∑ d : Fin 3, ctr W j d * ctr W j d)
    (h3 : ∀ j : Fin 1024, x3 (ix2 j a) = (if j.val / 16 = a.val then (1 : EReal) else 0) * w64inv) :
    out0_4 (F := Ideal) x0 x1 x2 x3 (ix2 p a) = entry X W i a := by
  unfold out0_4
  rw [View.canon_unit_zero hz]
  simp only [View.ld_unit_zero (S := S1024x3) hz, View.ld_unit_zero (S := S3x1024) hz, View.ld_unit_zero (S := S1x1024) hz,
    View.ld_unit_zero (S := S1024x64) hz]
  rw [Body.pay_at]
  have hw : ∀ j : Fin 1024, Body.weights x0 x1 x2 (ix2 p j) = val X W i j := by
    intro j
    rw [Body.weights_at]
    simp only [h0, h1, h2]
    rfl
  simp only [hw, h3]
  exact group_sum (fun j => val X W i j) a

/-! ## The blocks the call reads at a point -/

/-- Row p of the points' block at point t is row 1024·t + p of the points. -/
theorem points_blk (c : Dev nD) (t : Fin cfg0.N) (p : Fin 1024) (d : Fin 3) (i : Fin 262144)
    (hi : i.val = t.val * 1024 + p.val) :
    (iblk m c 0 t : FVec Ideal S1024x3 .f32) (ix2 p d) = (m ((c : Thread nD τ).loc main_arg0) : SX.Idx → EReal) (ix2 i d) := by
  unfold iblk
  rw [View.read_apply]
  show V m c main_arg0 _ = _
  rw [V_main_arg0]
  refine congrArg (m ((c : Thread nD τ).loc main_arg0) : SX.Idx → EReal) (funext fun b => Fin.ext ?_)
  obtain ⟨e0, e1, -⟩ := idx_facts t
  match b with
  | ⟨0, _⟩ => show win0_0.index t (0 : Fin 2) * 1024 + 1 * p.val = i.val; rw [e0, hi]; omega
  | ⟨1, _⟩ => show win0_0.index t (1 : Fin 2) * 3 + 1 * d.val = d.val; rw [e1]; omega

/-- The transposed centres' block is the whole array, at every point. -/
theorem centresT_blk (c : Dev nD) (t : Fin cfg0.N) (d : Fin 3) (j : Fin 1024) :
    (iblk m c 1 t : FVec Ideal S3x1024 .f32) (ix2 d j) = (V m c main_v1 : S3x1024.Idx → EReal) (ix2 d j) := by
  unfold iblk
  rw [View.read_apply]
  show V m c main_v1 _ = _
  refine congrArg (V m c main_v1 : S3x1024.Idx → EReal) (funext fun b => Fin.ext ?_)
  obtain ⟨-, -, e0, e1, -⟩ := idx_facts t
  match b with
  | ⟨0, _⟩ => show win0_1.index t (0 : Fin 2) * 3 + 1 * d.val = d.val; rw [e0]; omega
  | ⟨1, _⟩ => show win0_1.index t (1 : Fin 2) * 1024 + 1 * j.val = j.val; rw [e1]; omega

/-- The norms' row likewise. -/
theorem cnormRow_blk (c : Dev nD) (t : Fin cfg0.N) (u : Fin 1) (j : Fin 1024) :
    (iblk m c 2 t : FVec Ideal S1x1024 .f32) (ix2 u j) = (V m c main_v4 : S1x1024.Idx → EReal) (ix2 u j) := by
  unfold iblk
  rw [View.read_apply]
  show V m c main_v4 _ = _
  refine congrArg (V m c main_v4 : S1x1024.Idx → EReal) (funext fun b => Fin.ext ?_)
  obtain ⟨-, -, -, -, e0, e1, -⟩ := idx_facts t
  match b with
  | ⟨0, _⟩ => show win0_2.index t (0 : Fin 2) * 1 + 1 * u.val = u.val; rw [e0]; omega
  | ⟨1, _⟩ => show win0_2.index t (1 : Fin 2) * 1024 + 1 * j.val = j.val; rw [e1]; omega

/-- And the scaled membership matrix. -/
theorem scaled_blk (c : Dev nD) (t : Fin cfg0.N) (j : Fin 1024) (a : Fin 64) :
    (iblk m c 3 t : FVec Ideal S1024x64 .f32) (ix2 j a) = (V m c main_v15 : S1024x64.Idx → EReal) (ix2 j a) := by
  unfold iblk
  rw [View.read_apply]
  show V m c main_v15 _ = _
  refine congrArg (V m c main_v15 : S1024x64.Idx → EReal) (funext fun b => Fin.ext ?_)
  obtain ⟨-, -, -, -, -, -, e0, e1, -⟩ := idx_facts t
  match b with
  | ⟨0, _⟩ => show win0_3.index t (0 : Fin 2) * 1024 + 1 * j.val = j.val; rw [e0]; omega
  | ⟨1, _⟩ => show win0_3.index t (1 : Fin 2) * 64 + 1 * a.val = a.val; rw [e1]; omega

/-! ## From the blocks to the array -/

/-- WHAT POINT t WRITES BACK is block t of `G`. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg2))) := by
  rw [flushed4]
  refine funext fun y => ?_
  have hy0 : (y 0).val < 1024 := (y 0).isLt
  have hy1 : (y 1).val < 64 := (y 1).isLt
  have ht : t.val < 256 := by have h := t.isLt; have hN : cfg0.N = 256 := N_0; omega
  obtain ⟨-, -, -, -, -, -, -, -, e8, e9⟩ := idx_facts t
  have hyy : y = ix2 (⟨(y 0).val, hy0⟩ : Fin 1024) (⟨(y 1).val, hy1⟩ : Fin 64) :=
    funext fun b => by match b with | ⟨0, _⟩ => rfl | ⟨1, _⟩ => rfl
  have hemb : ((cfg0.win 4).blk t).view.emb y
      = ix2 (⟨t.val * 1024 + (y 0).val, by omega⟩ : Fin 262144) (⟨(y 1).val, hy1⟩ : Fin 64) := funext fun b => Fin.ext (by
    match b with
    | ⟨0, _⟩ => show win0_4.index t (0 : Fin 2) * 1024 + 1 * (y 0).val = t.val * 1024 + (y 0).val; rw [e8]; omega
    | ⟨1, _⟩ => show win0_4.index t (1 : Fin 2) * 64 + 1 * (y 1).val = (y 1).val; rw [e9]; omega)
  show out0_4 (F := Ideal) (iblk m c 0 t) (iblk m c 1 t) (iblk m c 2 t) (iblk m c 3 t) y
    = G (m ((c : Thread nD τ).loc main_arg0)) (m ((c : Thread nD τ).loc main_arg2)) (((cfg0.win 4).blk t).view.emb y)
  rw [hemb, G_at]
  refine (congrArg (out0_4 (F := Ideal) (iblk m c 0 t) (iblk m c 1 t) (iblk m c 2 t) (iblk m c 3 t)) hyy).trans ?_
  exact out_at (iblk m c 0 t) (iblk m c 1 t) (iblk m c 2 t) (iblk m c 3 t)
    (m ((c : Thread nD τ).loc main_arg0)) (m ((c : Thread nD τ).loc main_arg2))
    (⟨t.val * 1024 + (y 0).val, by omega⟩ : Fin 262144) (⟨(y 0).val, hy0⟩ : Fin 1024) (⟨(y 1).val, hy1⟩ : Fin 64)
    (fun d => points_blk m c t (⟨(y 0).val, hy0⟩ : Fin 1024) d (⟨t.val * 1024 + (y 0).val, by omega⟩ : Fin 262144) rfl)
    (fun d j => (centresT_blk m c t d j).trans (Prefix.centresT_at m c d j))
    (fun j => (cnormRow_blk m c t (0 : Fin 1) j).trans (Prefix.cnormRow_at m c j))
    (fun j => (scaled_blk m c t j (⟨(y 1).val, hy1⟩ : Fin 64)).trans (Prefix.scaled_at m c j (⟨(y 1).val, hy1⟩ : Fin 64)))

/-- An index of the result is in point t's block iff each coordinate is in the block's range on its axis. -/
theorem mem_blk (t : Fin cfg0.N) (i : S262144x64.Idx) :
    i ∈ ((cfg0.win 4).blk t).view.set ↔ ∀ b : Fin 2, win0_4.index t b * S1024x64.size b ≤ (i b).val
      ∧ (i b).val < win0_4.index t b * S1024x64.size b + S1024x64.size b := by
  show i ∈ ((View.whole main_v16).slice (win0_4.rect t)).set ↔ _
  rw [View.set_slice_whole, Rect.mem_set_unit]
  exact Iff.rfl

/-- Every index of the result lies in the block of the point its row falls in: row r is in block r / 1024. -/
theorem cover (i : S262144x64.Idx) :
    ∃ t : Fin cfg0.N, (cfg0.win 4).flush t = true ∧ i ∈ ((cfg0.win 4).blk t).view.set := by
  have hi0 : (i 0).val < 262144 := (i 0).isLt
  have hi1 : (i 1).val < 64 := (i 1).isLt
  have hN : cfg0.N = 256 := N_0
  refine ⟨⟨(i 0).val / 1024, by omega⟩, flush0_4 _, ?_⟩
  rw [mem_blk]
  obtain ⟨-, -, -, -, -, -, -, -, e8, e9⟩ := idx_facts ⟨(i 0).val / 1024, by omega⟩
  intro b
  match b with
  | ⟨0, _⟩ =>
    show win0_4.index ⟨(i 0).val / 1024, _⟩ (0 : Fin 2) * 1024 ≤ (i 0).val
      ∧ (i 0).val < win0_4.index ⟨(i 0).val / 1024, _⟩ (0 : Fin 2) * 1024 + 1024
    rw [e8]
    show (i 0).val / 1024 * 1024 ≤ (i 0).val ∧ (i 0).val < (i 0).val / 1024 * 1024 + 1024
    omega
  | ⟨1, _⟩ =>
    show win0_4.index ⟨(i 0).val / 1024, _⟩ (1 : Fin 2) * 64 ≤ (i 1).val
      ∧ (i 1).val < win0_4.index ⟨(i 0).val / 1024, _⟩ (1 : Fin 2) * 64 + 64
    rw [e9]
    omega

/-- THE ARRAY after the run is `G` of the two float arguments. -/
theorem final (c : Dev nD) : (dats m 0 c).arrAt 4 cfg0.N
    = G (m ((c : Thread nD τ).loc main_arg0)) (m ((c : Thread nD τ).loc main_arg2)) :=
  (dats m 0 c).arrAt_eq_of_cover 4 (G (m ((c : Thread nD τ).loc main_arg0)) (m ((c : Thread nD τ).loc main_arg2)))
    (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v16)
        = G (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.lean ====
/-
  The two programs compute one function of the points X (262144 × 3) and the centres W (64 groups of 16, 3
  coordinates each): at (i, a), the Gaussian weights exp (-(|X i|² + |W j|² - 2⟨X i, W j⟩)) · ½ of point i against
  the sixteen centres j of group a, summed and divided by 64 (`Spec.G`).

  The reference forms the weights of every point against all 1024 centres, regroups them as 64 groups of 16, sums
  each group and divides by 64 (`RefValue.result_eq`). The kernel walks the points in 256 blocks of 1024 rows; at each
  block it forms the same weights (the row's squared norm by a lane sum, the inner products by a matrix product
  into zero) and multiplies them into a 1024 × 64 matrix prepared before the call, whose entry (j, a) is 1/64 where
  j / 16 = a and 0 elsewhere (`Body`, `Prefix`); a product with 0 vanishes on the extended reals and the real 1/64
  distributes over any sum, so that contraction is the group's sum divided by 64 (`Spec.group_sum`), and the 256
  blocks tile the result (`KernelValue`). Neither side of the law needs the inputs finite, so the precondition is
  never opened. The idealization rewrote nothing, and the three frames are the generated ones, the reference's
  being its run with the result dropped.
-/
import proofs.«156698_j80985903334294_1_alg».proof.Defs
import proofs.«156698_j80985903334294_1_alg».proof.Proof.Gen.Kernel
import proofs.«156698_j80985903334294_1_alg».proof.Proof.Gen.Kernel.Skeleton
import proofs.«156698_j80985903334294_1_alg».proof.Proof.Gen.Kernel.Launch
import proofs.«156698_j80985903334294_1_alg».proof.Proof.Gen.Kernel.Points
import proofs.«156698_j80985903334294_1_alg».proof.Proof.Gen.Kernel.Frame
import proofs.«156698_j80985903334294_1_alg».proof.Proof.Gen.KernelIdeal
import proofs.«156698_j80985903334294_1_alg».proof.Proof.Gen.KernelIdeal.Skeleton
import proofs.«156698_j80985903334294_1_alg».proof.Proof.Gen.KernelIdeal.Launch
import proofs.«156698_j80985903334294_1_alg».proof.Proof.Gen.KernelIdeal.Points
import proofs.«156698_j80985903334294_1_alg».proof.Proof.Gen.KernelIdeal.Frame
import proofs.«156698_j80985903334294_1_alg».proof.Proof.Gen.ReferenceIdeal
import proofs.«156698_j80985903334294_1_alg».proof.Proof.Gen.Pre_finite_inputs
import proofs.«156698_j80985903334294_1_alg».proof.Proof.Gen.KernelIdeal.Value
import proofs.«156698_j80985903334294_1_alg».proof.Proof.Gen.ReferenceIdeal.Run
import proofs.«156698_j80985903334294_1_alg».proof.Proof.Gen.ReferenceIdeal.Read
import proofs.«156698_j80985903334294_1_alg».proof.Proof.RefValue
import proofs.«156698_j80985903334294_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both result arrays end at `Spec.G` of the points and the centres, which the two memories agree on. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
